-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x1x256 : Shape := ⟨3, ![65536, 1, 256]⟩
abbrev S256x768 : Shape := ⟨2, ![256, 768]⟩
abbrev S256x256 : Shape := ⟨2, ![256, 256]⟩
abbrev S768 : Shape := ⟨1, ![768]⟩
abbrev S256 : Shape := ⟨1, ![256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x1x256 : S_.BroadcastsInDim S65536x1x256 (![] : Fin 0 → Fin S65536x1x256.rank)
  reducesTo_S65536x1x256_S_d0_1_2 : S65536x1x256.ReducesTo [0, 1, 2] S_
  bcast_S_S256x768 : S_.BroadcastsInDim S256x768 (![] : Fin 0 → Fin S256x768.rank)
  reducesTo_S256x768_S_d0_1 : S256x768.ReducesTo [0, 1] S_
  bcast_S_S256x256 : S_.BroadcastsInDim S256x256 (![] : Fin 0 → Fin S256x256.rank)
  reducesTo_S256x256_S_d0_1 : S256x256.ReducesTo [0, 1] S_
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S768 .f32) (main_arg9 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x768 .f32) (main_arg5 : FVec F S256x768 .f32) (main_arg6 : FVec F S256x256 .f32) (main_arg7 : FVec F S256x256 .f32) (main_arg8 : FVec F S768 .f32) (main_arg9 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x768 .f32 := Host.absf main_arg4
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256x768 .f32 := Host.absf main_arg5
  let main_cst_8 : FVec F S_ .f32 := constant S_ .f32 0x7F800000#32
  let main_v25 : FVec F S256x768 .f32 := broadcastInDim S256x768 ![] bcast_S_S256x768 main_cst_8
  let main_v26 : IVec S256x768 1 := cmpf .olt main_v24 main_v25
  let main_c_9 : IVec S_ 1 := constantI S_ 1 1#1
  let main_v27 : IVec S_ 1 := (fun x v => Host.reduce IntOp.andi x v reducesTo_S256x768_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x256 .f32) (main_arg1 : FVec F S65536x1x256 .f32) (main_arg2 : FVec F S65536x256 .f32) (main_arg3 : FVec F S65536x256 .f32) (main_arg4 : FVec F S256x768 .f32) (main_arg5 : FVec F S256x768 .f32) (main_arg6 : FVec F S256x256 .f32) (main_arg7 : FVec F S256x256 .f32) (main_arg8 : FVec F S768 .f32) (main_arg9 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x1x256 .f32 := Host.absf main_arg1
  let main_cst_0 : FVec F S_ .f32 := constant S_ .f32 0x7F800000#32
  let main_v5 : FVec F S65536x1x256 .f32 := broadcastInDim S65536x1x256 ![] bcast_S_S65536x1x256 main_cst_0
  let main_v6 : IVec S65536x1x256 1 := cmpf .olt main_v4 main_v5
  let main_c_1 : IVec S_ 1 := constantI S_ 1 1#1
  let main_v7 : IVec S_ 1 := (fun x v => Host.reduce IntOp.andi x v reducesTo_S65536x1x256_S_d0_1_2 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_v13 main_v16
-- ==== Kernel.lean ====
abbrev S65536x256 : Shape := ⟨2, ![65536, 256]⟩
abbrev S65536x1x256 : Shape := ⟨3, ![65536, 1, 256]⟩
abbrev S256x768 : Shape := ⟨2, ![256, 768]⟩
abbrev S256x256 : Shape := ⟨2, ![256, 256]⟩
abbrev S768 : Shape := ⟨1, ![768]⟩
abbrev S256 : Shape := ⟨1, ![256]⟩
abbrev S1x768 : Shape := ⟨2, ![1, 768]⟩
abbrev S1x256 : Shape := ⟨2, ![1, 256]⟩
abbrev S2048x256 : Shape := ⟨2, ![2048, 256]⟩
abbrev S2048x1x256 : Shape := ⟨3, ![2048, 1, 256]⟩
abbrev S2048x768 : Shape := ⟨2, ![2048, 768]⟩

abbrev nBuf : Space → Nat
  | .hbm => 14
  | .vmem => 16
  | .smem => 0
  | _ => 0

abbrev bufTy : (tb : Table) → Fin (tcTables nBuf tb) → BufTy
  | .hbm, ⟨0, _⟩ => ⟨S65536x256, .f32⟩
  | .hbm, ⟨1, _⟩ => ⟨S65536x1x256, .f32⟩
  | .hbm, ⟨2, _⟩ => ⟨S65536x256, .f32⟩
  | .hbm, ⟨3, _⟩ => ⟨S65536x256, .f32⟩
  | .hbm, ⟨4, _⟩ => ⟨S256x768, .f32⟩
  | .hbm, ⟨5, _⟩ => ⟨S256x768, .f32⟩
  | .hbm, ⟨6, _⟩ => ⟨S256x256, .f32⟩
  | .hbm, ⟨7, _⟩ => ⟨S256x256, .f32⟩
  | .hbm, ⟨8, _⟩ => ⟨S768, .f32⟩
  | .hbm, ⟨9, _⟩ => ⟨S256, .f32⟩
  | .hbm, ⟨10, _⟩ => ⟨S1x768, .f32⟩
  | .hbm, ⟨11, _⟩ => ⟨S1x256, .f32⟩
  | .hbm, ⟨12, _⟩ => ⟨S65536x256, .f32⟩
  | .hbm, ⟨13, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x1x256, .f32⟩
  | .local _ .vmem, ⟨3, _⟩ => ⟨S2048x1x256, .f32⟩
  | .local _ .vmem, ⟨4, _⟩ => ⟨S2048x256, .f32⟩
  | .local _ .vmem, ⟨5, _⟩ => ⟨S2048x256, .f32⟩
  | .local _ .vmem, ⟨6, _⟩ => ⟨S256x768, .f32⟩
  | .local _ .vmem, ⟨7, _⟩ => ⟨S256x768, .f32⟩
  | .local _ .vmem, ⟨8, _⟩ => ⟨S256x256, .f32⟩
  | .local _ .vmem, ⟨9, _⟩ => ⟨S256x256, .f32⟩
  | .local _ .vmem, ⟨10, _⟩ => ⟨S1x768, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S768_S1x768 : S768.ShapeCasts S1x768
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S2048x1x256_S2048x1x256_0_0_0 : ∀ a, (![0, 0, 0] : Fin 3 → Nat) a + S2048x1x256.size a ≤ S2048x1x256.size a
  h_S2048x1x256 : 0 < S2048x1x256.numel
  shapeCasts_S2048x1x256_S2048x256 : S2048x1x256.ShapeCasts S2048x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S256x256_S256x256_0_0 : ∀ a, (![0, 0] : Fin 2 → Nat) a + S256x256.size a ≤ S256x256.size a
  h_S256x256 : 0 < S256x256.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x256 : S2048x768.Slices ![0, 0] S2048x256
  slices_S2048x768_o0_256_S2048x256 : S2048x768.Slices ![0, 256] S2048x256
  slices_S2048x768_o0_512_S2048x256 : S2048x768.Slices ![0, 512] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x768_S2048x768_1_0_0_1_n_n_wf : DotDims.WF S2048x256 S256x768 S2048x768 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1x256.size a ≤ S65536x1x256.size a
  hwx0_1 : ∀ i : grid0.Coords, EltTy.bits .f32 = 32 ∨ (Rect.block (s := S65536x1x256) S2048x1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x768.size a ≤ S256x768.size a
  hwx0_4 : ∀ i : grid0.Coords, EltTy.bits .f32 = 32 ∨ (Rect.block (s := S256x768) S256x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x768.size a ≤ S1x768.size a
  hwx0_7 : ∀ i : grid0.Coords, EltTy.bits .f32 = 32 ∨ (Rect.block (s := S1x768) S1x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S65536x256.size a
  hwx0_9 : ∀ i : grid0.Coords, EltTy.bits .f32 = 32 ∨ (Rect.block (s := S65536x256) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S65536x256.size a
  hwx0_10 : ∀ i : grid0.Coords, EltTy.bits .f32 = 32 ∨ (Rect.block (s := S65536x256) S2048x256.size (cc0_transform_10 i) (hinb0_10 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S2048x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S2048x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x1x256 : Shape := ⟨3, ![65536, 1, 256]⟩
abbrev S256x768 : Shape := ⟨2, ![256, 768]⟩
abbrev S256x256 : Shape := ⟨2, ![256, 256]⟩
abbrev S768 : Shape := ⟨1, ![768]⟩
abbrev S256 : Shape := ⟨1, ![256]⟩
abbrev S65536x768 : Shape := ⟨2, ![65536, 768]⟩
abbrev S1x768 : Shape := ⟨2, ![1, 768]⟩
abbrev S_ : Shape := ⟨0, ![]⟩
abbrev S1x256 : Shape := ⟨2, ![1, 256]⟩

abbrev nBuf : Space → Nat
  | .hbm => 61
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x1x256, .f32⟩
  | .hbm, ⟨2, _⟩ => ⟨S65536x256, .f32⟩
  | .hbm, ⟨3, _⟩ => ⟨S65536x256, .f32⟩
  | .hbm, ⟨4, _⟩ => ⟨S256x768, .f32⟩
  | .hbm, ⟨5, _⟩ => ⟨S256x768, .f32⟩
  | .hbm, ⟨6, _⟩ => ⟨S256x256, .f32⟩
  | .hbm, ⟨7, _⟩ => ⟨S256x256, .f32⟩
  | .hbm, ⟨8, _⟩ => ⟨S768, .f32⟩
  | .hbm, ⟨9, _⟩ => ⟨S256, .f32⟩
  | .hbm, ⟨10, _⟩ => ⟨S65536x768, .f32⟩
  | .hbm, ⟨11, _⟩ => ⟨S1x768, .f32⟩
  | .hbm, ⟨12, _⟩ => ⟨S65536x768, .f32⟩
  | .hbm, ⟨13, _⟩ => ⟨S65536x768, .f32⟩
  | .hbm, ⟨14, _⟩ => ⟨S65536x768, .f32⟩
  | .hbm, ⟨15, _⟩ => ⟨S65536x768, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S_, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x256, .f32⟩
  | .hbm, ⟨30, _⟩ => ⟨S65536x256, .f32⟩
  | .hbm, ⟨31, _⟩ => ⟨S_, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S1x256, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S65536x256, .f32⟩
  | .hbm, ⟨45, _⟩ => ⟨S_, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  slices_S65536x768_S65536x256_0_0 : S65536x768.Slices ![0, 0] S65536x256
  bcast_S_S65536x256 : S_.BroadcastsInDim S65536x256 (![] : Fin 0 → Fin S65536x256.rank)
  slices_S65536x768_S65536x256_0_256 : S65536x768.Slices ![0, 256] S65536x256
  slices_S65536x768_S65536x256_0_512 : S65536x768.Slices ![0, 512] S65536x256
  shapeCasts_S65536x1x256_S65536x256 : S65536x1x256.ShapeCasts S65536x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  dot_S65536x256_S256x768_S65536x768_1_0_0_1_n_n_wf : DotDims.WF S65536x256 S256x768 S65536x768 [1] [0] [0] [1] [] []
  dot_S65536x256_S256x256_S65536x256_1_0_0_1_n_n_wf : DotDims.WF S65536x256 S256x256 S65536x256 [1] [0] [0] [1] [] []

variable [Facts₀]

def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf

class Facts : Prop extends Facts₀ where

variable [Facts]
-- ==== Proof.MergeGate.lean ====
/-
  The scalar algebra of the merged-input LSTM cell, on the extended reals.

  Write `σ z = 1 / (1 + e^(-z))` for the logistic function.  Both programs form the gates
  `i = σ p_i`, `o = σ p_o`, `g = tanh p_g`, `α = σ a` from the same pre-activations, and then mix the candidate
  `g` with the incoming cell `c` by the two-way softmax of `(i, α)`:

    one side takes the weights  `σ (i - α)`  and  `1 - σ (i - α)`,
    the other the weights       `e^i / (e^i + e^α)`  and  `e^α / (e^i + e^α)`.

  The logistic function takes REAL values at every extended real (`σ ⊥ = 0`, `σ ⊤ = 1`), so `i` and `α` are real
  numbers whatever the pre-activations are, and for real `s`, `t`

    `σ (s - t) = 1 / (1 + e^(t - s)) = e^s / (e^s + e^t)`,   `1 - σ (s - t) = e^t / (e^s + e^t)`,

  an identity of real numbers (`e^s + e^t > 0`).  Hence the two cell updates, and the two hidden states
  `o · tanh c'`, are one function of `(p_i, p_o, p_g, a, c)` on all extended reals.
-/
import Idealize.ShloMosaic.PureOps.Ideal.Laws

noncomputable section

namespace Cert.Lstm

open Idealize.ShloMosaic

/-- The f32 pattern of `1.0` denotes the real number one. -/
theorem one_f32 : Ideal.ofBits .f32 0x3F800000#32 = 1 := IdealRules.sign_bit.ideal_onePat .f32

/-- The logistic function is real-valued on the whole extended line. -/
theorem logistic_real (z : EReal) : ∃ s : ℝ, Ideal.logistic z = (s : EReal) := by
  induction z using EReal.rec with
  | bot => exact ⟨0, by rw [Ideal.logistic_bot, EReal.coe_zero]⟩
  | top => exact ⟨1, by rw [Ideal.logistic_top, EReal.coe_one]⟩
  | coe r => exact ⟨_, Ideal.logistic_coe r⟩

/-- For real `s`, `t`: `σ (s - t) = e^s / (e^s + e^t)`. -/
theorem logistic_sub_coe (s t : ℝ) :
    Ideal.logistic ((s : EReal) - (t : EReal)) = Ideal.div (Ideal.exp s) (Ideal.exp s + Ideal.exp t) := by
  have hs : 0 < Real.exp s := Real.exp_pos s
  have ht : 0 < Real.exp t := Real.exp_pos t
  have hne : Real.exp s + Real.exp t ≠ 0 := (add_pos hs ht).ne'
  have e : Real.exp (-(s - t)) = Real.exp t / Real.exp s := by rw [neg_sub, Real.exp_sub]
  rw [← EReal.coe_sub, Ideal.logistic_coe, Ideal.exp_coe, Ideal.exp_coe, ← EReal.coe_add, Ideal.div_coe hne,
    ← EReal.coe_mul, e]
  congr 1
  field_simp

/-- For real `s`, `t`: `1 - σ (s - t) = e^t / (e^s + e^t)`. -/
theorem one_sub_logistic_sub_coe (s t : ℝ) :
    (1 : EReal) - Ideal.logistic ((s : EReal) - (t : EReal)) = Ideal.div (Ideal.exp t) (Ideal.exp s + Ideal.exp t) := by
  have hs : 0 < Real.exp s := Real.exp_pos s
  have ht : 0 < Real.exp t := Real.exp_pos t
  have hne : Real.exp s + Real.exp t ≠ 0 := (add_pos hs ht).ne'
  have e : Real.exp (-(s - t)) = Real.exp t / Real.exp s := by rw [neg_sub, Real.exp_sub]
  rw [← EReal.coe_sub, Ideal.logistic_coe, Ideal.exp_coe, Ideal.exp_coe, ← EReal.coe_add, Ideal.div_coe hne,
    ← EReal.coe_mul, ← EReal.coe_one, ← EReal.coe_sub, e]
  congr 1
  field_simp
  ring

/-- The new cell, with the softmax weights written as a logistic of the gates' difference. -/
def cellK (pi pg a c : EReal) : EReal :=
  Ideal.logistic (Ideal.logistic pi - Ideal.logistic a) * Ideal.tanh pg
    + (1 - Ideal.logistic (Ideal.logistic pi - Ideal.logistic a)) * c

/-- The new cell, with the softmax weights written as quotients of exponentials. -/
def cellR (pi pg a c : EReal) : EReal :=
  Ideal.div (Ideal.exp (Ideal.logistic pi)) (Ideal.exp (Ideal.logistic pi) + Ideal.exp (Ideal.logistic a)) * Ideal.tanh pg
    + Ideal.div (Ideal.exp (Ideal.logistic a)) (Ideal.exp (Ideal.logistic pi) + Ideal.exp (Ideal.logistic a)) * c

/-- The two spellings of the softmax weights give one cell update, at every extended real. -/
theorem cellK_eq_cellR (pi pg a c : EReal) : cellK pi pg a c = cellR pi pg a c := by
  obtain ⟨s, hs⟩ := logistic_real pi
  obtain ⟨t, ht⟩ := logistic_real a
  unfold cellK cellR
  rw [hs, ht, one_sub_logistic_sub_coe, logistic_sub_coe]

/-- The new hidden state: the output gate times `tanh` of the new cell. -/
def hid (po c' : EReal) : EReal := Ideal.logistic po * Ideal.tanh c'

end Cert.Lstm

end
-- ==== Proof.Spec.lean ====
/-
  What both programs compute, as two whole-array functions of the nine argument arrays they read.

  Batch row `r` and hidden column `j` (of 256); the number of rows is a parameter, so that the same functions
  describe a block of rows and the whole batch of 65536.  The 768 gate columns are three groups of 256:
  input gate `j`, output gate `256 + j`, candidate `512 + j`.  With `x` the input, `h` the previous hidden state,
  `c` the incoming cell (its middle axis has extent one), and the weights and biases as named:

    gate pre-activation   `P r q = (Σₖ x[r,k]·Wih[k,q] + Σₖ h[r,k]·Whh[k,q]) + b[q]`,
    merge pre-activation  `A r j = (Σₖ x[r,k]·Aih[k,j] + a[j]) + Σₖ c[r,0,k]·Ahh[k,j]`,
    new cell              `c' r j = cell (P r j) (P r (512+j)) (A r j) c[r,0,j]`,
    new hidden state      `h' r j = σ (P r (256+j)) · tanh (c' r j)`.
-/
import proofs.«116825_j39745627357368_2_alg».proof.Proof.MergeGate
import Idealize.ShloMosaic.Lib.ValueIdx

noncomputable section

open scoped BigOperators

namespace Cert.Lstm

open Idealize.ShloMosaic Idealize.ShloMosaic.ValueIdx

/-- Column of the input gate among the 768 gate columns. -/
def colI (j : Fin 256) : Fin 768 := ⟨j.val, by omega⟩
/-- Column of the output gate. -/
def colO (j : Fin 256) : Fin 768 := ⟨j.val + 256, by omega⟩
/-- Column of the candidate cell. -/
def colG (j : Fin 256) : Fin 768 := ⟨j.val + 512, by omega⟩

/-- The gates' pre-activation at row `r`, gate column `q`. -/
def gatePre {R : Nat} (x h : FVec Ideal ⟨2, ![R, 256]⟩ .f32) (wih whh : FVec Ideal ⟨2, ![256, 768]⟩ .f32)
    (b : FVec Ideal ⟨1, ![768]⟩ .f32) (r : Fin R) (q : Fin 768) : EReal :=
  (∑ k : Fin 256, x (ix2 r k) * wih (ix2 k q) + ∑ k : Fin 256, h (ix2 r k) * whh (ix2 k q)) + b (ix1 q)

/-- The merge gate's pre-activation at row `r`, column `j`. -/
def mergePre {R : Nat} (x : FVec Ideal ⟨2, ![R, 256]⟩ .f32) (c : FVec Ideal ⟨3, ![R, 1, 256]⟩ .f32)
    (aih ahh : FVec Ideal ⟨2, ![256, 256]⟩ .f32) (a : FVec Ideal ⟨1, ![256]⟩ .f32) (r : Fin R) (j : Fin 256) : EReal :=
  (∑ k : Fin 256, x (ix2 r k) * aih (ix2 k j) + a (ix1 j)) + ∑ k : Fin 256, c (ix3 r 0 k) * ahh (ix2 k j)

/-- The new cell at row `r`, column `j`. -/
def newCellAt {R : Nat} (x : FVec Ideal ⟨2, ![R, 256]⟩ .f32) (c : FVec Ideal ⟨3, ![R, 1, 256]⟩ .f32)
    (h : FVec Ideal ⟨2, ![R, 256]⟩ .f32) (wih whh : FVec Ideal ⟨2, ![256, 768]⟩ .f32)
    (aih ahh : FVec Ideal ⟨2, ![256, 256]⟩ .f32) (b : FVec Ideal ⟨1, ![768]⟩ .f32) (a : FVec Ideal ⟨1, ![256]⟩ .f32)
    (r : Fin R) (j : Fin 256) : EReal :=
  cellK (gatePre x h wih whh b r (colI j)) (gatePre x h wih whh b r (colG j)) (mergePre x c aih ahh a r j) (c (ix3 r 0 j))

/-- The new hidden state at row `r`, column `j`. -/
def newHiddenAt {R : Nat} (x : FVec Ideal ⟨2, ![R, 256]⟩ .f32) (c : FVec Ideal ⟨3, ![R, 1, 256]⟩ .f32)
    (h : FVec Ideal ⟨2, ![R, 256]⟩ .f32) (wih whh : FVec Ideal ⟨2, ![256, 768]⟩ .f32)
    (aih ahh : FVec Ideal ⟨2, ![256, 256]⟩ .f32) (b : FVec Ideal ⟨1, ![768]⟩ .f32) (a : FVec Ideal ⟨1, ![256]⟩ .f32)
    (r : Fin R) (j : Fin 256) : EReal :=
  hid (gatePre x h wih whh b r (colO j)) (newCellAt x c h wih whh aih ahh b a r j)

/-- The new cell, as an array. -/
def newCell (x : FVec Ideal ⟨2, ![65536, 256]⟩ .f32) (c : FVec Ideal ⟨3, ![65536, 1, 256]⟩ .f32)
    (h : FVec Ideal ⟨2, ![65536, 256]⟩ .f32) (wih whh : FVec Ideal ⟨2, ![256, 768]⟩ .f32)
    (aih ahh : FVec Ideal ⟨2, ![256, 256]⟩ .f32) (b : FVec Ideal ⟨1, ![768]⟩ .f32) (a : FVec Ideal ⟨1, ![256]⟩ .f32) :
    FVec Ideal ⟨2, ![65536, 256]⟩ .f32 :=
  fun i => newCellAt x c h wih whh aih ahh b a (i 0) (i 1)

/-- The new hidden state, as an array. -/
def newHidden (x : FVec Ideal ⟨2, ![65536, 256]⟩ .f32) (c : FVec Ideal ⟨3, ![65536, 1, 256]⟩ .f32)
    (h : FVec Ideal ⟨2, ![65536, 256]⟩ .f32) (wih whh : FVec Ideal ⟨2, ![256, 768]⟩ .f32)
    (aih ahh : FVec Ideal ⟨2, ![256, 256]⟩ .f32) (b : FVec Ideal ⟨1, ![768]⟩ .f32) (a : FVec Ideal ⟨1, ![256]⟩ .f32) :
    FVec Ideal ⟨2, ![65536, 256]⟩ .f32 :=
  fun i => newHiddenAt x c h wih whh aih ahh b a (i 0) (i 1)

/-! ## A row of the result depends on that row only -/

/-- Row `r` of the new cell reads row `r` of `x`, `c`, `h` and nothing else of them: two sets of arrays that agree on
    one row each, and on the weights and biases, give the same cell there. -/
theorem newCellAt_congr {R R' : Nat}
    (x : FVec Ideal ⟨2, ![R, 256]⟩ .f32) (c : FVec Ideal ⟨3, ![R, 1, 256]⟩ .f32) (h : FVec Ideal ⟨2, ![R, 256]⟩ .f32)
    (x' : FVec Ideal ⟨2, ![R', 256]⟩ .f32) (c' : FVec Ideal ⟨3, ![R', 1, 256]⟩ .f32) (h' : FVec Ideal ⟨2, ![R', 256]⟩ .f32)
    (wih whh wih' whh' : FVec Ideal ⟨2, ![256, 768]⟩ .f32) (aih ahh aih' ahh' : FVec Ideal ⟨2, ![256, 256]⟩ .f32)
    (b b' : FVec Ideal ⟨1, ![768]⟩ .f32) (a a' : FVec Ideal ⟨1, ![256]⟩ .f32) (r : Fin R) (r' : Fin R') (j : Fin 256)
    (hx : ∀ k : Fin 256, x (ix2 r k) = x' (ix2 r' k)) (hc : ∀ k : Fin 256, c (ix3 r 0 k) = c' (ix3 r' 0 k))
    (hh : ∀ k : Fin 256, h (ix2 r k) = h' (ix2 r' k))
    (hwih : wih = wih') (hwhh : whh = whh') (haih : aih = aih') (hahh : ahh = ahh')
    (hb : ∀ q : Fin 768, b (ix1 q) = b' (ix1 q)) (ha : ∀ q : Fin 256, a (ix1 q) = a' (ix1 q)) :
    newCellAt x c h wih whh aih ahh b a r j = newCellAt x' c' h' wih' whh' aih' ahh' b' a' r' j := by
  subst hwih hwhh haih hahh
  unfold newCellAt gatePre mergePre
  simp only [hx, hc, hh, hb, ha]

/-- The same for the new hidden state. -/
theorem newHiddenAt_congr {R R' : Nat}
    (x : FVec Ideal ⟨2, ![R, 256]⟩ .f32) (c : FVec Ideal ⟨3, ![R, 1, 256]⟩ .f32) (h : FVec Ideal ⟨2, ![R, 256]⟩ .f32)
    (x' : FVec Ideal ⟨2, ![R', 256]⟩ .f32) (c' : FVec Ideal ⟨3, ![R', 1, 256]⟩ .f32) (h' : FVec Ideal ⟨2, ![R', 256]⟩ .f32)
    (wih whh wih' whh' : FVec Ideal ⟨2, ![256, 768]⟩ .f32) (aih ahh aih' ahh' : FVec Ideal ⟨2, ![256, 256]⟩ .f32)
    (b b' : FVec Ideal ⟨1, ![768]⟩ .f32) (a a' : FVec Ideal ⟨1, ![256]⟩ .f32) (r : Fin R) (r' : Fin R') (j : Fin 256)
    (hx : ∀ k : Fin 256, x (ix2 r k) = x' (ix2 r' k)) (hc : ∀ k : Fin 256, c (ix3 r 0 k) = c' (ix3 r' 0 k))
    (hh : ∀ k : Fin 256, h (ix2 r k) = h' (ix2 r' k))
    (hwih : wih = wih') (hwhh : whh = whh') (haih : aih = aih') (hahh : ahh = ahh')
    (hb : ∀ q : Fin 768, b (ix1 q) = b' (ix1 q)) (ha : ∀ q : Fin 256, a (ix1 q) = a' (ix1 q)) :
    newHiddenAt x c h wih whh aih ahh b a r j = newHiddenAt x' c' h' wih' whh' aih' ahh' b' a' r' j := by
  subst hwih hwhh haih hahh
  unfold newHiddenAt newCellAt gatePre mergePre
  simp only [hx, hc, hh, hb, ha]

end Cert.Lstm

end
-- ==== Proof.RefSpec.lean ====
/-
  The reference computes the specification.

  Its two results are read one operation at a time, at row `r` and column `j`.  The three column slices of the
  gate pre-activation land on columns `j`, `256 + j`, `512 + j`; the reference adds the bias to `h·Whh` before
  it adds `x·Wih`, which is the specification's sum in another order (addition of extended reals is commutative
  and associative); its logistic is spelled `1 / (1 + e^(-z))` with the constant `1.0`, which is the logistic
  function; and its softmax weights are the quotients of exponentials, so its cell is `cellR`, which is `cellK`.
-/
import proofs.«116825_j39745627357368_2_alg».proof.Proof.Spec
import proofs.«116825_j39745627357368_2_alg».proof.Proof.Gen.ReferenceIdeal.Read

noncomputable section

open scoped BigOperators

namespace Cert.Lstm.Ref

open Cert.ReferenceIdeal Cert.ReferenceIdeal.Read Idealize.ShloMosaic Idealize.ShloMosaic.ValueIdx Cert.Lstm

variable (x0 : (⟨S65536x256, .f32⟩ : BufTy).Contents (Elt Ideal)) (x1 : (⟨S65536x1x256, .f32⟩ : BufTy).Contents (Elt Ideal))
  (x2 : (⟨S65536x256, .f32⟩ : BufTy).Contents (Elt Ideal))
  (x4 x5 : (⟨S256x768, .f32⟩ : BufTy).Contents (Elt Ideal)) (x6 x7 : (⟨S256x256, .f32⟩ : BufTy).Contents (Elt Ideal))
  (x8 : (⟨S768, .f32⟩ : BufTy).Contents (Elt Ideal)) (x9 : (⟨S256, .f32⟩ : BufTy).Contents (Elt Ideal))

/-! ## Where each operation reads its operands, at row `r` -/

theorem lidx0 (r : Fin 65536) (q : Fin 768) (k : Fin 256) : lidx_main_v0 (ix2 r q) k = ix2 r k := by
  funext a; match a with | ⟨0, _⟩ => rfl | ⟨1, _⟩ => rfl
theorem ridx0 (r : Fin 65536) (q : Fin 768) (k : Fin 256) : ridx_main_v0 (ix2 r q) k = ix2 k q := by
  funext a; match a with | ⟨0, _⟩ => rfl | ⟨1, _⟩ => rfl
theorem lidx4 (r : Fin 65536) (q : Fin 768) (k : Fin 256) : lidx_main_v4 (ix2 r q) k = ix2 r k := by
  funext a; match a with | ⟨0, _⟩ => rfl | ⟨1, _⟩ => rfl
theorem ridx4 (r : Fin 65536) (q : Fin 768) (k : Fin 256) : ridx_main_v4 (ix2 r q) k = ix2 k q := by
  funext a; match a with | ⟨0, _⟩ => rfl | ⟨1, _⟩ => rfl
theorem idx2 (r : Fin 65536) (q : Fin 768) : idx_main_v2 (ix2 r q) = ix2 (0 : Fin 1) q := by
  funext a; match a with | ⟨0, _⟩ => rfl | ⟨1, _⟩ => rfl
theorem idx1 (u : Fin 1) (q : Fin 768) : idx_main_v1 (ix2 u q) = ix1 q := by
  funext a; match a with | ⟨0, _⟩ => rfl
theorem lidx23 (r : Fin 65536) (j : Fin 256) (k : Fin 256) : lidx_main_v23 (ix2 r j) k = ix2 r k := by
  funext a; match a with | ⟨0, _⟩ => rfl | ⟨1, _⟩ => rfl
theorem ridx23 (r : Fin 65536) (j : Fin 256) (k : Fin 256) : ridx_main_v23 (ix2 r j) k = ix2 k j := by
  funext a; match a with | ⟨0, _⟩ => rfl | ⟨1, _⟩ => rfl
theorem lidx27 (r : Fin 65536) (j : Fin 256) (k : Fin 256) : lidx_main_v27 (ix2 r j) k = ix2 r k := by
  funext a; match a with | ⟨0, _⟩ => rfl | ⟨1, _⟩ => rfl
theorem ridx27 (r : Fin 65536) (j : Fin 256) (k : Fin 256) : ridx_main_v27 (ix2 r j) k = ix2 k j := by
  funext a; match a with | ⟨0, _⟩ => rfl | ⟨1, _⟩ => rfl
theorem idx25 (r : Fin 65536) (j : Fin 256) : idx_main_v25 (ix2 r j) = ix2 (0 : Fin 1) j := by
  funext a; match a with | ⟨0, _⟩ => rfl | ⟨1, _⟩ => rfl
theorem idx24 (u : Fin 1) (j : Fin 256) : idx_main_v24 (ix2 u j) = ix1 j := by
  funext a; match a with | ⟨0, _⟩ => rfl
/-- The row-major reshape that drops the unit middle axis reads `(r, j)` at `(r, 0, j)`. -/
theorem idx22 (r : Fin 65536) (j : Fin 256) : idx_main_v22 (ix2 r j) = ix3 r (0 : Fin 1) j := by
  have hj : j.val < 256 := j.isLt
  funext a; apply Fin.ext
  match a with
  | ⟨0, _⟩ => show (r.val * 256 + j.val) / 256 = r.val; omega
  | ⟨1, _⟩ => rfl
  | ⟨2, _⟩ => show (r.val * 256 + j.val) % 256 = j.val; omega
theorem idx6 (r : Fin 65536) (j : Fin 256) : idx_main_v6 (ix2 r j) = ix2 r (colI j) := by
  funext a; match a with | ⟨0, _⟩ => rfl | ⟨1, _⟩ => rfl
theorem idx13 (r : Fin 65536) (j : Fin 256) : idx_main_v13 (ix2 r j) = ix2 r (colO j) := by
  funext a; apply Fin.ext
  match a with
  | ⟨0, _⟩ => rfl
  | ⟨1, _⟩ => exact Nat.add_comm 256 j.val
theorem idx20 (r : Fin 65536) (j : Fin 256) : idx_main_v20 (ix2 r j) = ix2 r (colG j) := by
  funext a; apply Fin.ext
  match a with
  | ⟨0, _⟩ => rfl
  | ⟨1, _⟩ => exact Nat.add_comm 512 j.val

/-- The logistic function as the host spells it. -/
theorem logistic_spelled (z : EReal) : Ideal.div 1 (1 + Ideal.exp (-z)) = Ideal.logistic z := rfl

/-! ## The pre-activations -/

/-- The reference's gate pre-activation: the specification's, summed in another order. -/
theorem pre_eq (r : Fin 65536) (q : Fin 768) :
    val_main_v5 (F := Ideal) x0 x2 x4 x5 x8 (ix2 r q) = gatePre x0 x2 x4 x5 x8 r q := by
  rw [val_main_v5_apply, val_main_v3_apply, val_main_v0_apply, val_main_v4_apply, val_main_v2_apply, val_main_v1_apply]
  simp only [lidx0, ridx0, lidx4, ridx4, idx2, idx1, Ideal.addf_def]
  unfold gatePre
  exact (add_comm _ _).trans (add_assoc _ _ _).symm

/-- The reference's merge pre-activation is the specification's. -/
theorem mpre_eq (r : Fin 65536) (j : Fin 256) :
    val_main_v28 (F := Ideal) x0 x1 x6 x7 x9 (ix2 r j) = mergePre x0 x1 x6 x7 x9 r j := by
  rw [val_main_v28_apply, val_main_v26_apply, val_main_v23_apply, val_main_v27_apply, val_main_v25_apply, val_main_v24_apply]
  simp only [val_main_v22_apply, lidx23, ridx23, lidx27, ridx27, idx25, idx24, idx22, Ideal.addf_def]
  rfl

/-! ## The two results -/

/-- The reference's new cell at `(r, j)`. -/
theorem cell_eq (r : Fin 65536) (j : Fin 256) :
    val_main_v42 (F := Ideal) x0 x1 x2 x4 x5 x6 x7 x8 x9 (ix2 r j) = newCellAt x0 x1 x2 x4 x5 x6 x7 x8 x9 r j := by
  unfold newCellAt
  rw [cellK_eq_cellR, ← pre_eq, ← pre_eq, ← mpre_eq]
  unfold cellR
  simp only [val_main_v42_apply, val_main_v40_apply, val_main_v41_apply, val_main_v38_apply, val_main_v39_apply, val_main_v37_apply, val_main_v35_apply, val_main_v36_apply, val_main_v12_apply, val_main_v11_apply, val_main_cst_0_apply, val_main_v10_apply, val_main_v9_apply, val_main_cst_apply, val_main_v8_apply, val_main_v7_apply, val_main_v6_apply, val_main_v34_apply, val_main_v33_apply, val_main_cst_4_apply, val_main_v32_apply, val_main_v31_apply, val_main_cst_3_apply, val_main_v30_apply, val_main_v29_apply, val_main_v21_apply, val_main_v20_apply, val_main_v22_apply,
    idx6, idx20, idx22, Ideal.addf_def, Ideal.mulf_def, Ideal.hostDivf_def, Ideal.hostUnary_exp_def, Ideal.hostUnary_tanh_def,
    Ideal.hostNegf_def, Ideal.negf_def, Ideal.ofBits_def, one_f32, logistic_spelled]

/-- The reference's new hidden state at `(r, j)`. -/
theorem hidden_eq (r : Fin 65536) (j : Fin 256) :
    val_main_v44 (F := Ideal) x0 x1 x2 x4 x5 x6 x7 x8 x9 (ix2 r j) = newHiddenAt x0 x1 x2 x4 x5 x6 x7 x8 x9 r j := by
  unfold newHiddenAt hid
  rw [← pre_eq, ← cell_eq]
  simp only [val_main_v44_apply, val_main_v43_apply, val_main_v19_apply, val_main_v18_apply, val_main_cst_2_apply, val_main_v17_apply, val_main_v16_apply, val_main_cst_1_apply, val_main_v15_apply, val_main_v14_apply, val_main_v13_apply,
    idx13, Ideal.addf_def, Ideal.mulf_def, Ideal.hostDivf_def, Ideal.hostUnary_exp_def, Ideal.hostUnary_tanh_def,
    Ideal.hostNegf_def, Ideal.negf_def, Ideal.ofBits_def, one_f32, logistic_spelled]

/-- The reference's new cell is the specification's array. -/
theorem cell_array : val_main_v42 (F := Ideal) x0 x1 x2 x4 x5 x6 x7 x8 x9 = newCell x0 x1 x2 x4 x5 x6 x7 x8 x9 := by
  funext i
  obtain ⟨r, j, rfl⟩ : ∃ (r : Fin 65536) (j : Fin 256), i = ix2 r j := ⟨i 0, i 1, eq_ix2 i⟩
  exact cell_eq x0 x1 x2 x4 x5 x6 x7 x8 x9 r j

/-- The reference's new hidden state is the specification's array. -/
theorem hidden_array : val_main_v44 (F := Ideal) x0 x1 x2 x4 x5 x6 x7 x8 x9 = newHidden x0 x1 x2 x4 x5 x6 x7 x8 x9 := by
  funext i
  obtain ⟨r, j, rfl⟩ : ∃ (r : Fin 65536) (j : Fin 256), i = ix2 r j := ⟨i 0, i 1, eq_ix2 i⟩
  exact hidden_eq x0 x1 x2 x4 x5 x6 x7 x8 x9 r j

end Cert.Lstm.Ref

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.KernelBlock.lean ====
/-
  What the kernel body leaves in its two output blocks, at row `p` of the block's 2048 rows and column `j`.

  The body loads a block of 2048 rows of `x`, `c`, `h`, the four weight matrices whole, and the two biases as
  one-row matrices.  Rounding to bf16 before a product is the identity on extended reals, a matrix product into
  the zero matrix is the sum over the contracted index, a one-row matrix broadcast down the rows reads its one
  row, and dropping the unit middle axis of `c` reads `(p, 0, k)` at `(p, k)`.  So the 2048 × 768 gate
  pre-activation and the merge gate are the specification's `gatePre` and `σ (mergePre …)` on the block's
  operands; the three column slices read columns `j`, `256 + j`, `512 + j`; and the two stored values are the
  specification's cell and hidden state of the block's operands at `(p, j)`.
-/
import proofs.«116825_j39745627357368_2_alg».proof.Proof.Spec
import proofs.«116825_j39745627357368_2_alg».proof.Proof.LibPlainMatmul
import proofs.«116825_j39745627357368_2_alg».proof.Proof.Gen.KernelIdeal.Value
import Idealize.ShloMosaic.Lib.ValueLayout
import Idealize.ShloMosaic.Lib.Pipeline.Value

noncomputable section

open scoped BigOperators

namespace Cert.Lstm.Kern

open Cert.KernelIdeal Cert.KernelIdeal.Gen Idealize.ShloMosaic Idealize.ShloMosaic.ValueIdx Cert.Lstm

/-- A one-row matrix read as a vector. -/
def row {n : Nat} (v : FVec Ideal ⟨2, ![1, n]⟩ .f32) : FVec Ideal ⟨1, ![n]⟩ .f32 := fun i => v (ix2 (0 : Fin 1) (i 0))

/-- The scalar constant `1.0` denotes one. -/
theorem scalar_one : (Scalar.ofBits .f32 0x3F800000#32 : Ideal .f32) = 1 := one_f32

/-- Dropping the unit middle axis: `(p, k)` reads `(p, 0, k)`. -/
theorem squeeze_apply (P5 : FVec Ideal S2048x1x256 .f32) (p : Fin 2048) (k : Fin 256) :
    shapeCast S2048x256 P5 shapeCasts_S2048x1x256_S2048x256 (ix2 p k) = P5 (ix3 p (0 : Fin 1) k) :=
  shapeCast_apply P5 shapeCasts_S2048x1x256_S2048x256 (ix2 p k) (ix3 p (0 : Fin 1) k)
    (by rw [Shape.rowMajor_val_three, Shape.rowMajor_val_two]
        show (p.val * 1 + 0) * 256 + k.val = p.val * 256 + k.val
        omega)

/-! ## The two pre-activations -/

/-- The body's 2048 × 768 gate pre-activation at `(p, q)`. -/
theorem gate_pay (P0 P1 : FVec Ideal S2048x256 .f32) (P2 P3 : FVec Ideal S256x768 .f32) (P4 : FVec Ideal S1x768 .f32)
    (p : Fin 2048) (q : Fin 768) :
    k0_pay5 (F := Ideal) P0 P1 P2 P3 P4 (ix2 p q) = gatePre P0 P1 P2 P3 (row P4) p q := by
  have m1 : _ = ∑ k : Fin 256, P0 (ix2 p k) * P2 (ix2 k q) :=
    PlainMatmul.matmul_zero_apply dot_S2048x256_S256x768_S2048x768_1_0_0_1_n_n rfl rfl rfl rfl rfl rfl none
      (truncf .bf16 P0 bitsLt_bf16_f32) (truncf .bf16 P2 bitsLt_bf16_f32) p q
  have m2 : _ = ∑ k : Fin 256, P1 (ix2 p k) * P3 (ix2 k q) :=
    PlainMatmul.matmul_zero_apply dot_S2048x256_S256x768_S2048x768_1_0_0_1_n_n rfl rfl rfl rfl rfl rfl none
      (truncf .bf16 P1 bitsLt_bf16_f32) (truncf .bf16 P3 bitsLt_bf16_f32) p q
  have bb : _ = P4 (ix2 (0 : Fin 1) q) :=
    (broadcastTo_1b_ab_apply (shapeCast S1x768 P4 shapeCasts_S1x768_S1x768) broadcasts_S1x768_S2048x768 p q).trans
      (congrFun (shapeCast_self P4 shapeCasts_S1x768_S1x768) (ix2 (0 : Fin 1) q))
  unfold k0_pay5 k0_pay4 gatePre row
  exact congrArg₂ (· + ·) (congrArg₂ (· + ·) m1 m2) bb

/-- The body's merge gate at `(p, j)`. -/
theorem merge_pay (P0 : FVec Ideal S2048x256 .f32) (P5 : FVec Ideal S2048x1x256 .f32) (P6 P7 : FVec Ideal S256x256 .f32)
    (P8 : FVec Ideal S1x256 .f32) (p : Fin 2048) (j : Fin 256) :
    k0_pay9 (F := Ideal) P0 P5 P6 P7 P8 (ix2 p j) = Ideal.logistic (mergePre P0 P5 P6 P7 (row P8) p j) := by
  have m1 : _ = ∑ k : Fin 256, P0 (ix2 p k) * P6 (ix2 k j) :=
    PlainMatmul.matmul_zero_apply dot_S2048x256_S256x256_S2048x256_1_0_0_1_n_n rfl rfl rfl rfl rfl rfl none
      (truncf .bf16 P0 bitsLt_bf16_f32) (truncf .bf16 P6 bitsLt_bf16_f32) p j
  have m2 : _ = ∑ k : Fin 256, P5 (ix3 p (0 : Fin 1) k) * P7 (ix2 k j) :=
    (PlainMatmul.matmul_zero_apply dot_S2048x256_S256x256_S2048x256_1_0_0_1_n_n rfl rfl rfl rfl rfl rfl none
      (truncf .bf16 (shapeCast S2048x256 P5 shapeCasts_S2048x1x256_S2048x256) bitsLt_bf16_f32)
      (truncf .bf16 P7 bitsLt_bf16_f32) p j).trans
      (Finset.sum_congr rfl fun k _ => congrArg (· * P7 (ix2 k j)) (squeeze_apply P5 p k))
  have bb : _ = P8 (ix2 (0 : Fin 1) j) :=
    (broadcastTo_1b_ab_apply (shapeCast S1x256 P8 shapeCasts_S1x256_S1x256) broadcasts_S1x256_S2048x256 p j).trans
      (congrFun (shapeCast_self P8 shapeCasts_S1x256_S1x256) (ix2 (0 : Fin 1) j))
  unfold k0_pay9 k0_pay4 k0_pay3 mergePre row
  exact congrArg Ideal.logistic (congrArg₂ (· + ·) (congrArg₂ (· + ·) m1 bb) m2)

/-! ## The two stored values -/

/-- The block the body stores as the new cell, at `(p, j)`. -/
theorem cell_block (P0 P1 : FVec Ideal S2048x256 .f32) (P2 P3 : FVec Ideal S256x768 .f32) (P4 : FVec Ideal S1x768 .f32)
    (P5 : FVec Ideal S2048x1x256 .f32) (P6 P7 : FVec Ideal S256x256 .f32) (P8 : FVec Ideal S1x256 .f32) (p : Fin 2048) (j : Fin 256) :
    Cert.KernelIdeal.Value.E10 (F := Ideal) P0 P1 P2 P3 P4 P5 P6 P7 P8 (ix2 p j) = newCellAt P0 P5 P1 P2 P3 P6 P7 (row P4) (row P8) p j := by
  have gI := gate_pay P0 P1 P2 P3 P4 p (colI j)
  have gG := gate_pay P0 P1 P2 P3 P4 p (colG j)
  have mA := merge_pay P0 P5 P6 P7 P8 p j
  have i0 : Cert.KernelIdeal.Value.ix10_0 (ix2 p j) = ix2 p (colI j) := by funext a; match a with | ⟨0, _⟩ => rfl | ⟨1, _⟩ => rfl
  have i1 : Cert.KernelIdeal.Value.ix10_1 (ix2 p j) = ix2 p j := by funext a; match a with | ⟨0, _⟩ => rfl | ⟨1, _⟩ => rfl
  have i2 : Cert.KernelIdeal.Value.ix10_2 (ix2 p j) = ix2 p (colG j) := by funext a; match a with | ⟨0, _⟩ => rfl | ⟨1, _⟩ => rfl
  have i3 : Cert.KernelIdeal.Value.ix10_3 (ix2 p j) = ix2 p (colI j) := by funext a; match a with | ⟨0, _⟩ => rfl | ⟨1, _⟩ => rfl
  have i4 : Cert.KernelIdeal.Value.ix10_4 (ix2 p j) = ix2 p j := by funext a; match a with | ⟨0, _⟩ => rfl | ⟨1, _⟩ => rfl
  have i5 : Cert.KernelIdeal.Value.ix10_5 (ix2 p j) = ix3 p (0 : Fin 1) j := by funext a; match a with | ⟨0, _⟩ => rfl | ⟨1, _⟩ => rfl | ⟨2, _⟩ => rfl
  unfold newCellAt cellK
  simp only [Cert.KernelIdeal.Value.E10, i0, i1, i2, i3, i4, i5, gI, gG, mA, Ideal.addf_def, Ideal.mulf_def, Ideal.subf_def,
    Ideal.logistic_def, Ideal.tanh_def, scalar_one]

/-- The block the body stores as the new hidden state, at `(p, j)`. -/
theorem hidden_block (P0 P1 : FVec Ideal S2048x256 .f32) (P2 P3 : FVec Ideal S256x768 .f32) (P4 : FVec Ideal S1x768 .f32)
    (P5 : FVec Ideal S2048x1x256 .f32) (P6 P7 : FVec Ideal S256x256 .f32) (P8 : FVec Ideal S1x256 .f32) (p : Fin 2048) (j : Fin 256) :
    Cert.KernelIdeal.Value.E9 (F := Ideal) P0 P1 P2 P3 P4 P5 P6 P7 P8 (ix2 p j) = newHiddenAt P0 P5 P1 P2 P3 P6 P7 (row P4) (row P8) p j := by
  have gI := gate_pay P0 P1 P2 P3 P4 p (colI j)
  have gO := gate_pay P0 P1 P2 P3 P4 p (colO j)
  have gG := gate_pay P0 P1 P2 P3 P4 p (colG j)
  have mA := merge_pay P0 P5 P6 P7 P8 p j
  have i0 : Cert.KernelIdeal.Value.ix9_0 (ix2 p j) = ix2 p (colO j) := by funext a; match a with | ⟨0, _⟩ => rfl | ⟨1, _⟩ => rfl
  have i1 : Cert.KernelIdeal.Value.ix9_1 (ix2 p j) = ix2 p (colI j) := by funext a; match a with | ⟨0, _⟩ => rfl | ⟨1, _⟩ => rfl
  have i2 : Cert.KernelIdeal.Value.ix9_2 (ix2 p j) = ix2 p j := by funext a; match a with | ⟨0, _⟩ => rfl | ⟨1, _⟩ => rfl
  have i3 : Cert.KernelIdeal.Value.ix9_3 (ix2 p j) = ix2 p (colG j) := by funext a; match a with | ⟨0, _⟩ => rfl | ⟨1, _⟩ => rfl
  have i4 : Cert.KernelIdeal.Value.ix9_4 (ix2 p j) = ix2 p (colI j) := by funext a; match a with | ⟨0, _⟩ => rfl | ⟨1, _⟩ => rfl
  have i5 : Cert.KernelIdeal.Value.ix9_5 (ix2 p j) = ix2 p j := by funext a; match a with | ⟨0, _⟩ => rfl | ⟨1, _⟩ => rfl
  have i6 : Cert.KernelIdeal.Value.ix9_6 (ix2 p j) = ix3 p (0 : Fin 1) j := by funext a; match a with | ⟨0, _⟩ => rfl | ⟨1, _⟩ => rfl | ⟨2, _⟩ => rfl
  unfold newHiddenAt hid newCellAt cellK
  simp only [Cert.KernelIdeal.Value.E9, i0, i1, i2, i3, i4, i5, i6, gI, gO, gG, mA, Ideal.addf_def, Ideal.mulf_def, Ideal.subf_def,
    Ideal.logistic_def, Ideal.tanh_def, scalar_one]

/-! ## The output windows' buffers after the body -/

theorem hz2 : (![0, 0] : Fin 2 → Nat) = fun _ => 0 := funext fun a => by fin_cases a <;> rfl
theorem hz3 : (![0, 0, 0] : Fin 3 → Nat) = fun _ => 0 := funext fun a => by fin_cases a <;> rfl

/-- The new-cell window's buffer after the body, from the input windows' blocks. -/
theorem out_cell (x0 : FVec Ideal S2048x256 .f32) (x1 : FVec Ideal S2048x1x256 .f32) (x2 : FVec Ideal S2048x256 .f32)
    (x3 x4 : FVec Ideal S256x768 .f32) (x5 x6 : FVec Ideal S256x256 .f32) (x7 : FVec Ideal S1x768 .f32) (x8 : FVec Ideal S1x256 .f32) (p : Fin 2048) (j : Fin 256) :
    out0_10 (F := Ideal) x0 x1 x2 x3 x4 x5 x6 x7 x8 (ix2 p j) = newCellAt x0 x1 x2 x3 x4 x5 x6 (row x7) (row x8) p j := by
  unfold out0_10
  simp only [View.ld_unit_zero (S := S2048x256) hz2, View.ld_unit_zero (S := S2048x1x256) hz3,
    View.ld_unit_zero (S := S256x768) hz2, View.ld_unit_zero (S := S256x256) hz2, View.ld_unit_zero (S := S1x768) hz2,
    View.ld_unit_zero (S := S1x256) hz2]
  exact (Cert.KernelIdeal.Value.canon10_eq (F := Ideal) x0 x2 x3 x4 x7 x1 x5 x6 x8 (ix2 p j)).trans (cell_block x0 x2 x3 x4 x7 x1 x5 x6 x8 p j)

/-- The new-hidden-state window's buffer after the body, from the input windows' blocks. -/
theorem out_hidden (x0 : FVec Ideal S2048x256 .f32) (x1 : FVec Ideal S2048x1x256 .f32) (x2 : FVec Ideal S2048x256 .f32)
    (x3 x4 : FVec Ideal S256x768 .f32) (x5 x6 : FVec Ideal S256x256 .f32) (x7 : FVec Ideal S1x768 .f32) (x8 : FVec Ideal S1x256 .f32) (p : Fin 2048) (j : Fin 256) :
    out0_9 (F := Ideal) x0 x1 x2 x3 x4 x5 x6 x7 x8 (ix2 p j) = newHiddenAt x0 x1 x2 x3 x4 x5 x6 (row x7) (row x8) p j := by
  unfold out0_9
  simp only [View.ld_unit_zero (S := S2048x256) hz2, View.ld_unit_zero (S := S2048x1x256) hz3,
    View.ld_unit_zero (S := S256x768) hz2, View.ld_unit_zero (S := S256x256) hz2, View.ld_unit_zero (S := S1x768) hz2,
    View.ld_unit_zero (S := S1x256) hz2]
  exact (Cert.KernelIdeal.Value.canon9_eq (F := Ideal) x0 x2 x3 x4 x7 x1 x5 x6 x8 (ix2 p j)).trans (hidden_block x0 x2 x3 x4 x7 x1 x5 x6 x8 p j)

end Cert.Lstm.Kern

end
-- ==== Proof.KernelRun.lean ====
/-
  From blocks to arrays: the kernel's run ends with the specification's two arrays.

  The grid has 32 points; point `t` works on rows `2048·t … 2048·t + 2047`.  The windows of `x`, `c`, `h` and of
  the two results move with `t` along the rows (block index `(t, 0)`, for `c` `(t, 0, 0)`); the weight and bias
  windows are single blocks (block index zero at every point).  So row `p` of an input block at point `t` is row
  `2048·t + p` of its array, a weight block is its whole array, and a bias block is the one-row matrix the host
  reshaped the bias into.  A row of the result reads that row only, so what point `t` writes back is block `t` of
  the specification's array; and row `r` lies in the block of point `r / 2048`, so the written blocks cover
  the result arrays, which therefore end holding the specification's arrays.
-/
import proofs.«116825_j39745627357368_2_alg».proof.Proof.KernelBlock
import Idealize.ShloMosaic.Lib.StableHlo.Run

noncomputable section

namespace Cert.Lstm.Kern

open Cert.KernelIdeal Cert.KernelIdeal.Gen Cert.KernelIdeal.Value Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

/-! ## The block indices, decided over the 32 points -/

theorem index_rows0 : ∀ t : Fin cfg0.N, win0_0.index t (0 : Fin 2) = t.val ∧ win0_0.index t (1 : Fin 2) = 0 :=
  (by decide +kernel : ∀ t : Fin grid0.N, _)
theorem index_rows2 : ∀ t : Fin cfg0.N, win0_2.index t (0 : Fin 2) = t.val ∧ win0_2.index t (1 : Fin 2) = 0 :=
  (by decide +kernel : ∀ t : Fin grid0.N, _)
theorem index_rows9 : ∀ t : Fin cfg0.N, win0_9.index t (0 : Fin 2) = t.val ∧ win0_9.index t (1 : Fin 2) = 0 :=
  (by decide +kernel : ∀ t : Fin grid0.N, _)
theorem index_rows10 : ∀ t : Fin cfg0.N, win0_10.index t (0 : Fin 2) = t.val ∧ win0_10.index t (1 : Fin 2) = 0 :=
  (by decide +kernel : ∀ t : Fin grid0.N, _)
theorem index_rows1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index_whole3 : ∀ t : Fin cfg0.N, win0_3.index t (0 : Fin 2) = 0 ∧ win0_3.index t (1 : Fin 2) = 0 :=
  (by decide +kernel : ∀ t : Fin grid0.N, _)
theorem index_whole4 : ∀ t : Fin cfg0.N, win0_4.index t (0 : Fin 2) = 0 ∧ win0_4.index t (1 : Fin 2) = 0 :=
  (by decide +kernel : ∀ t : Fin grid0.N, _)
theorem index_whole5 : ∀ t : Fin cfg0.N, win0_5.index t (0 : Fin 2) = 0 ∧ win0_5.index t (1 : Fin 2) = 0 :=
  (by decide +kernel : ∀ t : Fin grid0.N, _)
theorem index_whole6 : ∀ t : Fin cfg0.N, win0_6.index t (0 : Fin 2) = 0 ∧ win0_6.index t (1 : Fin 2) = 0 :=
  (by decide +kernel : ∀ t : Fin grid0.N, _)
theorem index_whole7 : ∀ t : Fin cfg0.N, win0_7.index t (0 : Fin 2) = 0 ∧ win0_7.index t (1 : Fin 2) = 0 :=
  (by decide +kernel : ∀ t : Fin grid0.N, _)
theorem index_whole8 : ∀ t : Fin cfg0.N, win0_8.index t (0 : Fin 2) = 0 ∧ win0_8.index t (1 : Fin 2) = 0 :=
  (by decide +kernel : ∀ t : Fin grid0.N, _)

/-- The array row of row `p` of the block at point `t`. -/
def rowOf (t : Fin cfg0.N) (p : Fin 2048) : Fin 65536 :=
  ⟨t.val * 2048 + p.val, by have h := t.isLt; have hN : cfg0.N = 32 := N_0; have hp := p.isLt; omega⟩

/-! ## The input windows' blocks -/

/-- Row `p` of window 0's block at point `t` is row `2048·t + p` of the input. -/
theorem blk_x (c : Dev nD) (t : Fin cfg0.N) (p : Fin 2048) (k : Fin 256) :
    iblk m c 0 t (ix2 p k) = m ((c : Thread nD τ).loc main_arg0) (ix2 (rowOf t p) k) := by
  obtain ⟨e0, e1⟩ := index_rows0 t
  show V m c main_arg0 (((cfg0.win 0).blk t).view.emb (ix2 p k)) = m ((c : Thread nD τ).loc main_arg0) (ix2 (rowOf t p) k)
  have h : ((cfg0.win 0).blk t).view.emb (ix2 p k) = ix2 (rowOf t p) k := by
    funext a; apply Fin.ext
    match a with
    | ⟨0, _⟩ => show win0_0.index t (0 : Fin 2) * 2048 + 1 * p.val = t.val * 2048 + p.val; rw [e0]; omega
    | ⟨1, _⟩ => show win0_0.index t (1 : Fin 2) * 256 + 1 * k.val = k.val; rw [e1]; omega
  rw [h, V_main_arg0]

/-- Row `p` of window 2's block at point `t` is row `2048·t + p` of the previous hidden state. -/
theorem blk_h (c : Dev nD) (t : Fin cfg0.N) (p : Fin 2048) (k : Fin 256) :
    iblk m c 2 t (ix2 p k) = m ((c : Thread nD τ).loc main_arg2) (ix2 (rowOf t p) k) := by
  obtain ⟨e0, e1⟩ := index_rows2 t
  show V m c main_arg2 (((cfg0.win 2).blk t).view.emb (ix2 p k)) = m ((c : Thread nD τ).loc main_arg2) (ix2 (rowOf t p) k)
  have h : ((cfg0.win 2).blk t).view.emb (ix2 p k) = ix2 (rowOf t p) k := by
    funext a; apply Fin.ext
    match a with
    | ⟨0, _⟩ => show win0_2.index t (0 : Fin 2) * 2048 + 1 * p.val = t.val * 2048 + p.val; rw [e0]; omega
    | ⟨1, _⟩ => show win0_2.index t (1 : Fin 2) * 256 + 1 * k.val = k.val; rw [e1]; omega
  rw [h, V_main_arg2]

/-- Row `p` of the incoming cell's block at point `t` is row `2048·t + p` of the incoming cell. -/
theorem blk_c (c : Dev nD) (t : Fin cfg0.N) (p : Fin 2048) (k : Fin 256) :
    iblk m c 1 t (ix3 p (0 : Fin 1) k) = m ((c : Thread nD τ).loc main_arg1) (ix3 (rowOf t p) (0 : Fin 1) k) := by
  obtain ⟨e0, e1, e2⟩ := index_rows1 t
  show V m c main_arg1 (((cfg0.win 1).blk t).view.emb (ix3 p (0 : Fin 1) k)) = m ((c : Thread nD τ).loc main_arg1) (ix3 (rowOf t p) (0 : Fin 1) k)
  have h : ((cfg0.win 1).blk t).view.emb (ix3 p (0 : Fin 1) k) = ix3 (rowOf t p) (0 : Fin 1) k := by
    funext a; apply Fin.ext
    match a with
    | ⟨0, _⟩ => show win0_1.index t (0 : Fin 3) * 2048 + 1 * p.val = t.val * 2048 + p.val; rw [e0]; omega
    | ⟨1, _⟩ => show win0_1.index t (1 : Fin 3) * 1 + 1 * 0 = 0; rw [e1]
    | ⟨2, _⟩ => show win0_1.index t (2 : Fin 3) * 256 + 1 * k.val = k.val; rw [e2]; omega
  rw [h, V_main_arg1]

/-- Window 3 is one block, all of the input-to-gates weights. -/
theorem blk_wih (c : Dev nD) (t : Fin cfg0.N) : (iblk m c 3 t : S256x768.Idx → EReal) = m ((c : Thread nD τ).loc main_arg4) := by
  obtain ⟨e0, e1⟩ := index_whole3 t
  funext y
  show V m c main_arg4 (((cfg0.win 3).blk t).view.emb y) = m ((c : Thread nD τ).loc main_arg4) y
  have h : ((cfg0.win 3).blk t).view.emb y = y := by
    funext a; apply Fin.ext
    match a with
    | ⟨0, _⟩ => show win0_3.index t (0 : Fin 2) * 256 + 1 * (y 0).val = (y 0).val; rw [e0]; omega
    | ⟨1, _⟩ => show win0_3.index t (1 : Fin 2) * 768 + 1 * (y 1).val = (y 1).val; rw [e1]; omega
  rw [h, V_main_arg4]

/-- Window 4 is one block, all of the hidden-to-gates weights. -/
theorem blk_whh (c : Dev nD) (t : Fin cfg0.N) : (iblk m c 4 t : S256x768.Idx → EReal) = m ((c : Thread nD τ).loc main_arg5) := by
  obtain ⟨e0, e1⟩ := index_whole4 t
  funext y
  show V m c main_arg5 (((cfg0.win 4).blk t).view.emb y) = m ((c : Thread nD τ).loc main_arg5) y
  have h : ((cfg0.win 4).blk t).view.emb y = y := by
    funext a; apply Fin.ext
    match a with
    | ⟨0, _⟩ => show win0_4.index t (0 : Fin 2) * 256 + 1 * (y 0).val = (y 0).val; rw [e0]; omega
    | ⟨1, _⟩ => show win0_4.index t (1 : Fin 2) * 768 + 1 * (y 1).val = (y 1).val; rw [e1]; omega
  rw [h, V_main_arg5]

/-- Window 5 is one block, all of the input-to-merge weights. -/
theorem blk_aih (c : Dev nD) (t : Fin cfg0.N) : (iblk m c 5 t : S256x256.Idx → EReal) = m ((c : Thread nD τ).loc main_arg6) := by
  obtain ⟨e0, e1⟩ := index_whole5 t
  funext y
  show V m c main_arg6 (((cfg0.win 5).blk t).view.emb y) = m ((c : Thread nD τ).loc main_arg6) y
  have h : ((cfg0.win 5).blk t).view.emb y = y := by
    funext a; apply Fin.ext
    match a with
    | ⟨0, _⟩ => show win0_5.index t (0 : Fin 2) * 256 + 1 * (y 0).val = (y 0).val; rw [e0]; omega
    | ⟨1, _⟩ => show win0_5.index t (1 : Fin 2) * 256 + 1 * (y 1).val = (y 1).val; rw [e1]; omega
  rw [h, V_main_arg6]

/-- Window 6 is one block, all of the cell-to-merge weights. -/
theorem blk_ahh (c : Dev nD) (t : Fin cfg0.N) : (iblk m c 6 t : S256x256.Idx → EReal) = m ((c : Thread nD τ).loc main_arg7) := by
  obtain ⟨e0, e1⟩ := index_whole6 t
  funext y
  show V m c main_arg7 (((cfg0.win 6).blk t).view.emb y) = m ((c : Thread nD τ).loc main_arg7) y
  have h : ((cfg0.win 6).blk t).view.emb y = y := by
    funext a; apply Fin.ext
    match a with
    | ⟨0, _⟩ => show win0_6.index t (0 : Fin 2) * 256 + 1 * (y 0).val = (y 0).val; rw [e0]; omega
    | ⟨1, _⟩ => show win0_6.index t (1 : Fin 2) * 256 + 1 * (y 1).val = (y 1).val; rw [e1]; omega
  rw [h, V_main_arg7]

/-- Window 7 is the one-row matrix the host reshaped the bias into: its row is the bias. -/
theorem blk_b (c : Dev nD) (t : Fin cfg0.N) (q : Fin 768) :
    row (iblk m c 7 t) (ix1 q) = m ((c : Thread nD τ).loc main_arg8) (ix1 q) := by
  obtain ⟨e0, e1⟩ := index_whole7 t
  have hv : (V m c main_v0 : S1x768.Idx → EReal) = shapeCast S1x768 (m ((c : Thread nD τ).loc main_arg8)) shapeCasts_S768_S1x768 := by
    dsimp only [V, hostOps0]; after_results; rfl
  show V m c main_v0 (((cfg0.win 7).blk t).view.emb (ix2 (0 : Fin 1) q)) = m ((c : Thread nD τ).loc main_arg8) (ix1 q)
  have h : ((cfg0.win 7).blk t).view.emb (ix2 (0 : Fin 1) q) = ix2 (0 : Fin 1) q := by
    funext a; apply Fin.ext
    match a with
    | ⟨0, _⟩ => show win0_7.index t (0 : Fin 2) * 1 + 1 * 0 = 0; rw [e0]
    | ⟨1, _⟩ => show win0_7.index t (1 : Fin 2) * 768 + 1 * q.val = q.val; rw [e1]; omega
  rw [h, hv]
  exact shapeCast_a_1a_apply _ _ (0 : Fin 1) q

/-- Window 8 is the one-row matrix the host reshaped the bias into: its row is the bias. -/
theorem blk_a (c : Dev nD) (t : Fin cfg0.N) (q : Fin 256) :
    row (iblk m c 8 t) (ix1 q) = m ((c : Thread nD τ).loc main_arg9) (ix1 q) := by
  obtain ⟨e0, e1⟩ := index_whole8 t
  have hv : (V m c main_v1 : S1x256.Idx → EReal) = shapeCast S1x256 (m ((c : Thread nD τ).loc main_arg9)) shapeCasts_S256_S1x256 := by
    dsimp only [V, hostOps0]; after_results; rfl
  show V m c main_v1 (((cfg0.win 8).blk t).view.emb (ix2 (0 : Fin 1) q)) = m ((c : Thread nD τ).loc main_arg9) (ix1 q)
  have h : ((cfg0.win 8).blk t).view.emb (ix2 (0 : Fin 1) q) = ix2 (0 : Fin 1) q := by
    funext a; apply Fin.ext
    match a with
    | ⟨0, _⟩ => show win0_8.index t (0 : Fin 2) * 1 + 1 * 0 = 0; rw [e0]
    | ⟨1, _⟩ => show win0_8.index t (1 : Fin 2) * 256 + 1 * q.val = q.val; rw [e1]; omega
  rw [h, hv]
  exact shapeCast_a_1a_apply _ _ (0 : Fin 1) q

/-! ## What each point writes back -/

/-- The block that point `t` writes back through the new-hidden-state window is block `t` of the specification's array. -/
theorem flushed_hidden (c : Dev nD) (t : Fin cfg0.N) :
    (dats m 0 c).flushed 9 t = ((cfg0.win 9).blk t).view.read (Elt Ideal) (newHidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed9]
  obtain ⟨e0, e1⟩ := index_rows9 t
  refine funext fun (y : S2048x256.Idx) => ?_
  obtain ⟨p, j, rfl⟩ : ∃ (p : Fin 2048) (j : Fin 256), y = ix2 p j := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p j)
    = newHidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 9).blk t).view.emb (ix2 p j))
  have h : ((cfg0.win 9).blk t).view.emb (ix2 p j) = ix2 (rowOf t p) j := by
    funext a; apply Fin.ext
    match a with
    | ⟨0, _⟩ => show win0_9.index t (0 : Fin 2) * 2048 + 1 * p.val = t.val * 2048 + p.val; rw [e0]; omega
    | ⟨1, _⟩ => show win0_9.index t (1 : Fin 2) * 256 + 1 * j.val = j.val; rw [e1]; omega
  rw [h]
  refine (out_hidden (iblk m c 0 t) (iblk m c 1 t) (iblk m c 2 t) (iblk m c 3 t) (iblk m c 4 t) (iblk m c 5 t) (iblk m c 6 t) (iblk m c 7 t) (iblk m c 8 t) p j).trans ?_
  show newHiddenAt (iblk m c 0 t) (iblk m c 1 t) (iblk m c 2 t) (iblk m c 3 t) (iblk m c 4 t) (iblk m c 5 t) (iblk m c 6 t) (row (iblk m c 7 t)) (row (iblk m c 8 t)) p j
    = newHiddenAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowOf t p) j
  exact newHiddenAt_congr _ _ _ _ _ _ _ _ _ _ _ _ _ _ _ _ _ _ p (rowOf t p) j
    (fun k => blk_x m c t p k) (fun k => blk_c m c t p k) (fun k => blk_h m c t p k)
    (blk_wih m c t) (blk_whh m c t) (blk_aih m c t) (blk_ahh m c t) (fun q => blk_b m c t q) (fun q => blk_a m c t q)

/-- The block that point `t` writes back through the new-cell window is block `t` of the specification's array. -/
theorem flushed_cell (c : Dev nD) (t : Fin cfg0.N) :
    (dats m 0 c).flushed 10 t = ((cfg0.win 10).blk t).view.read (Elt Ideal) (newCell (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [flushed10]
  obtain ⟨e0, e1⟩ := index_rows10 t
  refine funext fun (y : S2048x256.Idx) => ?_
  obtain ⟨p, j, rfl⟩ : ∃ (p : Fin 2048) (j : Fin 256), y = ix2 p j := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (ix2 p j)
    = newCell (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb (ix2 p j))
  have h : ((cfg0.win 10).blk t).view.emb (ix2 p j) = ix2 (rowOf t p) j := by
    funext a; apply Fin.ext
    match a with
    | ⟨0, _⟩ => show win0_10.index t (0 : Fin 2) * 2048 + 1 * p.val = t.val * 2048 + p.val; rw [e0]; omega
    | ⟨1, _⟩ => show win0_10.index t (1 : Fin 2) * 256 + 1 * j.val = j.val; rw [e1]; omega
  rw [h]
  refine (out_cell (iblk m c 0 t) (iblk m c 1 t) (iblk m c 2 t) (iblk m c 3 t) (iblk m c 4 t) (iblk m c 5 t) (iblk m c 6 t) (iblk m c 7 t) (iblk m c 8 t) p j).trans ?_
  show newCellAt (iblk m c 0 t) (iblk m c 1 t) (iblk m c 2 t) (iblk m c 3 t) (iblk m c 4 t) (iblk m c 5 t) (iblk m c 6 t) (row (iblk m c 7 t)) (row (iblk m c 8 t)) p j
    = newCellAt (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowOf t p) j
  exact newCellAt_congr _ _ _ _ _ _ _ _ _ _ _ _ _ _ _ _ _ _ p (rowOf t p) j
    (fun k => blk_x m c t p k) (fun k => blk_c m c t p k) (fun k => blk_h m c t p k)
    (blk_wih m c t) (blk_whh m c t) (blk_aih m c t) (blk_ahh m c t) (fun q => blk_b m c t q) (fun q => blk_a m c t q)

/-! ## The written blocks cover the arrays -/

/-- An index of the array is in point `t`'s block iff each coordinate is in the block's range on its axis. -/
theorem mem_blk_hidden (t : Fin cfg0.N) (i : S65536x256.Idx) :
    i ∈ ((cfg0.win 9).blk t).view.set ↔ ∀ a : Fin 2, win0_9.index t a * S2048x256.size a ≤ (i a).val ∧ (i a).val < win0_9.index t a * S2048x256.size a + S2048x256.size a := by
  show i ∈ ((View.whole main_v2_0).slice (win0_9.rect t)).set ↔ _
  rw [View.set_slice_whole, Rect.mem_set_unit]
  exact Iff.rfl

/-- Every row lies in the block of the point `row / 2048`, so the written blocks cover the array. -/
theorem cover_hidden (i : S65536x256.Idx) :
    ∃ t : Fin cfg0.N, (cfg0.win 9).flush t = true ∧ i ∈ ((cfg0.win 9).blk t).view.set := by
  have h0 : (i 0).val < 65536 := (i 0).isLt
  have h1 : (i 1).val < 256 := (i 1).isLt
  have hN : cfg0.N = 32 := N_0
  obtain ⟨t, ht⟩ : ∃ t : Fin cfg0.N, t.val = (i 0).val / 2048 := ⟨⟨(i 0).val / 2048, by omega⟩, rfl⟩
  obtain ⟨e0, e1⟩ := index_rows9 t
  refine ⟨t, flush0_9 t, ?_⟩
  rw [mem_blk_hidden]
  intro a
  match a with
  | ⟨0, _⟩ => show win0_9.index t (0 : Fin 2) * 2048 ≤ (i 0).val ∧ (i 0).val < win0_9.index t (0 : Fin 2) * 2048 + 2048; rw [e0]; omega
  | ⟨1, _⟩ => show win0_9.index t (1 : Fin 2) * 256 ≤ (i 1).val ∧ (i 1).val < win0_9.index t (1 : Fin 2) * 256 + 256; rw [e1]; omega

/-- An index of the array is in point `t`'s block iff each coordinate is in the block's range on its axis. -/
theorem mem_blk_cell (t : Fin cfg0.N) (i : S65536x256.Idx) :
    i ∈ ((cfg0.win 10).blk t).view.set ↔ ∀ a : Fin 2, win0_10.index t a * S2048x256.size a ≤ (i a).val ∧ (i a).val < win0_10.index t a * S2048x256.size a + S2048x256.size a := by
  show i ∈ ((View.whole main_v2_1).slice (win0_10.rect t)).set ↔ _
  rw [View.set_slice_whole, Rect.mem_set_unit]
  exact Iff.rfl

/-- Every row lies in the block of the point `row / 2048`, so the written blocks cover the array. -/
theorem cover_cell (i : S65536x256.Idx) :
    ∃ t : Fin cfg0.N, (cfg0.win 10).flush t = true ∧ i ∈ ((cfg0.win 10).blk t).view.set := by
  have h0 : (i 0).val < 65536 := (i 0).isLt
  have h1 : (i 1).val < 256 := (i 1).isLt
  have hN : cfg0.N = 32 := N_0
  obtain ⟨t, ht⟩ : ∃ t : Fin cfg0.N, t.val = (i 0).val / 2048 := ⟨⟨(i 0).val / 2048, by omega⟩, rfl⟩
  obtain ⟨e0, e1⟩ := index_rows10 t
  refine ⟨t, flush0_10 t, ?_⟩
  rw [mem_blk_cell]
  intro a
  match a with
  | ⟨0, _⟩ => show win0_10.index t (0 : Fin 2) * 2048 ≤ (i 0).val ∧ (i 0).val < win0_10.index t (0 : Fin 2) * 2048 + 2048; rw [e0]; omega
  | ⟨1, _⟩ => show win0_10.index t (1 : Fin 2) * 256 ≤ (i 1).val ∧ (i 1).val < win0_10.index t (1 : Fin 2) * 256 + 256; rw [e1]; omega

/-! ## The arrays after the run, and the run -/

theorem final_hidden (c : Dev nD) : (dats m 0 c).arrAt 9 cfg0.N = newHidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 9 _ (fun t _ => flushed_hidden m c t) cover_hidden

theorem final_cell (c : Dev nD) : (dats m 0 c).arrAt 10 cfg0.N = newCell (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 _ (fun t _ => flushed_cell m c t) cover_cell

/-- Every weakly fair execution of the kernel's program terminates with the two results at the specification's arrays of
    the arguments, and the arguments unchanged. -/
theorem run : θ_run defs (onTc (τ := τ) (main (F := Ideal))) ⟨m, fun _ => 0, ρ⟩ fun r => ∀ c : Dev nD,
      r.2.mem ((c : Thread nD τ).loc main_v2_0) = newHidden (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v2_1) = newCell (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hidden m c), (h c).2.1.trans (final_cell m c), (h c).2.2⟩)
    (run_blocks m ρ)

end Cert.Lstm.Kern

end
-- ==== Proof.lean ====
/-
  The certificate of the merged-input LSTM cell: the Pallas kernel against its jnp reference.

  Both programs compute, for every batch row and hidden column, the gates `i = σ P_i`, `o = σ P_o`, `g = tanh P_g`
  from one gate pre-activation `P = x·Wih + h·Whh + b`, the merge gate `α = σ (x·Aih + a + c·Ahh)`, the new cell
  `c' = w_i · g + w_α · c` with the two-way softmax weights of `(i, α)`, and the new hidden state `h' = o · tanh c'`.
  They differ in three ways, none of which changes a value on the extended reals: the kernel rounds the operands of
  its matrix products to bf16 (the identity there) and works block by block over 2048 rows; the reference adds the
  bias before the second product rather than after (addition is commutative and associative); and the kernel writes
  the softmax weights as `σ (i - α)` and `1 - σ (i - α)` where the reference writes `e^i / (e^i + e^α)` and
  `e^α / (e^i + e^α)` — equal because `i` and `α`, being values of the logistic function, are real numbers.

  The modules: `MergeGate` (the scalar identity), `Spec` (the two results as whole-array functions of the arguments),
  `RefSpec` (the reference's run ends there), `KernelBlock` (what the body leaves in a block), `KernelRun` (the blocks
  cover the arrays: the kernel's run ends there).  Here the five claims are assembled.
-/
import proofs.«116825_j39745627357368_2_alg».proof.Defs
import proofs.«116825_j39745627357368_2_alg».proof.Proof.Gen.Kernel.Frame
import proofs.«116825_j39745627357368_2_alg».proof.Proof.Gen.KernelIdeal.Frame
import proofs.«116825_j39745627357368_2_alg».proof.Proof.Gen.KernelIdeal.Value
import proofs.«116825_j39745627357368_2_alg».proof.Proof.Gen.ReferenceIdeal.Run
import proofs.«116825_j39745627357368_2_alg».proof.Proof.Gen.ReferenceIdeal.Read
import proofs.«116825_j39745627357368_2_alg».proof.Proof.Gen.Pre_finite_inputs
import proofs.«116825_j39745627357368_2_alg».proof.Proof.RefSpec
import proofs.«116825_j39745627357368_2_alg».proof.Proof.KernelRun

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments, the kernel's run and the reference's run both end with the new hidden
    state and the new cell at the specification's arrays of those arguments. -/
theorem algebraic : Cert.algebraic_KernelIdeal_ReferenceIdeal := by
  intro m ρ m' ρ' _ hagree
  refine ⟨_, _, Cert.Lstm.Kern.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, -, h4, h5, h6, h7, h8, h9⟩ := hagree c
    rw [Cert.ReferenceIdeal.Read.val_main_v44_eq, Cert.Lstm.Ref.hidden_array, h0, h1, h2, h4, h5, h6, h7, h8, h9]
  · obtain ⟨h0, h1, h2, -, h4, h5, h6, h7, h8, h9⟩ := hagree c
    rw [Cert.ReferenceIdeal.Read.val_main_v42_eq, Cert.Lstm.Ref.cell_array, h0, h1, h2, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
